-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x128x512 : Shape := ⟨3, ![4, 128, 512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : FVec F S4x128x512 .f32) (main_arg2 : FVec F S1024x512 .f32) (main_arg3 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4x128x512 : Shape := ⟨3, ![4, 128, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S4x256x128x1024 : Shape := ⟨4, ![4, 256, 128, 1024]⟩
abbrev S1x16x512 : Shape := ⟨3, ![1, 16, 512]⟩
abbrev S1x128x512 : Shape := ⟨3, ![1, 128, 512]⟩
abbrev S1x16x128x1024 : Shape := ⟨4, ![1, 16, 128, 1024]⟩
abbrev S16x512 : Shape := ⟨2, ![16, 512]⟩
abbrev S128x512 : Shape := ⟨2, ![128, 512]⟩
abbrev S16x1x512 : Shape := ⟨3, ![16, 1, 512]⟩
abbrev S16x128x512 : Shape := ⟨3, ![16, 128, 512]⟩
abbrev S2048x512 : Shape := ⟨2, ![2048, 512]⟩
abbrev S2048x1024 : Shape := ⟨2, ![2048, 1024]⟩
abbrev S16x128x1024 : Shape := ⟨3, ![16, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512x1024, .bf16⟩
  | .hbm, ⟨6, _⟩ => ⟨S1x1024, .f32⟩
  | .hbm, ⟨7, _⟩ => ⟨S4x256x128x1024, .f32⟩
  | .local _ .vmem, ⟨0, _⟩ => ⟨S1x16x512, .f32⟩
  | .local _ .vmem, ⟨1, _⟩ => ⟨S1x16x512, .f32⟩
  | .local _ .vmem, ⟨2, _⟩ => ⟨S1x128x512, .f32⟩
  | .local _ .vmem, ⟨3, _⟩ => ⟨S1x128x512, .f32⟩
  | .local _ .vmem, ⟨4, _⟩ => ⟨S512x1024, .bf16⟩
  | .local _ .vmem, ⟨5, _⟩ => ⟨S1x1024, .f32⟩
  | .local _ .vmem, ⟨6, _⟩ => ⟨S1x16x128x1024, .f32⟩
  | .local _ .vmem, ⟨7, _⟩ => ⟨S1x16x128x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  shapeCasts_S16x128x512_S2048x512 : S16x128x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x1024_S16x128x1024 : S2048x1024.ShapeCasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .f32 = 32 ∨ (Rect.block (s := S4x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x1024.size a ≤ S4x256x128x1024.size a
  hwx0_4 : ∀ i : grid0.Coords, EltTy.bits .f32 = 32 ∨ (Rect.block (s := S4x256x128x1024) S1x16x128x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x128x512 : Shape := ⟨3, ![4, 128, 512]⟩
abbrev S1024x512 : Shape := ⟨2, ![1024, 512]⟩
abbrev S1024 : Shape := ⟨1, ![1024]⟩
abbrev S4x256x1x512 : Shape := ⟨4, ![4, 256, 1, 512]⟩
abbrev S4x1x128x512 : Shape := ⟨4, ![4, 1, 128, 512]⟩
abbrev S4x256x128x512 : Shape := ⟨4, ![4, 256, 128, 512]⟩
abbrev S4x256x128x1024 : Shape := ⟨4, ![4, 256, 128, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S1024x512, .f32⟩
  | .hbm, ⟨3, _⟩ => ⟨S1024, .f32⟩
  | .hbm, ⟨4, _⟩ => ⟨S4x256x1x512, .f32⟩
  | .hbm, ⟨5, _⟩ => ⟨S4x1x128x512, .f32⟩
  | .hbm, ⟨6, _⟩ => ⟨S4x256x128x512, .f32⟩
  | .hbm, ⟨7, _⟩ => ⟨S4x256x128x512, .f32⟩
  | .hbm, ⟨8, _⟩ => ⟨S4x256x128x512, .f32⟩
  | .hbm, ⟨9, _⟩ => ⟨S4x256x128x1024, .f32⟩
  | .hbm, ⟨10, _⟩ => ⟨S1x1x1x1024, .f32⟩
  | .hbm, ⟨11, _⟩ => ⟨S4x256x128x1024, .f32⟩
  | .hbm, ⟨12, _⟩ => ⟨S4x256x128x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4x256x512_S4x256x1x512_0_1_3 : S4x256x512.BroadcastsInDim S4x256x1x512 (![0, 1, 3] : Fin 3 → Fin S4x256x1x512.rank)
  bcast_S4x128x512_S4x1x128x512_0_2_3 : S4x128x512.BroadcastsInDim S4x1x128x512 (![0, 2, 3] : Fin 3 → Fin S4x1x128x512.rank)
  bcast_S4x256x1x512_S4x256x128x512_0_1_2_3 : S4x256x1x512.BroadcastsInDim S4x256x128x512 (![0, 1, 2, 3] : Fin 4 → Fin S4x256x128x512.rank)
  bcast_S4x1x128x512_S4x256x128x512_0_1_2_3 : S4x1x128x512.BroadcastsInDim S4x256x128x512 (![0, 1, 2, 3] : Fin 4 → Fin S4x256x128x512.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  dot_S4x256x128x512_S1024x512_S4x256x128x1024_3_1_012_0_n_n_wf : DotDims.WF S4x256x128x512 S1024x512 S4x256x128x1024 [3] [1] [0, 1, 2] [0] [] []

variable [Facts₀]

def dot_S4x256x128x512_S1024x512_S4x256x128x1024_3_1_012_0_n_n : DotDims S4x256x128x512 S1024x512 S4x256x128x1024 where
  lhsContracting := [3]
  rhsContracting := [1]
  lhsNonContracting := [0, 1, 2]
  rhsNonContracting := [0]
  lhsBatch := []
  rhsBatch := []
  wf := dot_S4x256x128x512_S1024x512_S4x256x128x1024_3_1_012_0_n_n_wf

class Facts : Prop extends Facts₀ where

variable [Facts]
-- ==== Proof.WindowBlocks.lean ====
/-
  The four input blocks of a grid point, as entries of the argument arrays.

  The grid is 4 × 16: point t stands for batch entry b = t / 16 and encoder tile t % 16 (sixteen frames each). At that
  point
  • the encoder block is enc[b, 16·(t % 16) … 16·(t % 16) + 15, :];
  • the decoder block is dec[b, :, :];
  • the weight block is the whole [512, 1024] array the program prepared before the launch: the transpose of W (its
    change of float format is the identity on the extended reals), so its entry (k, c) is W[c, k];
  • the bias block is the whole [1, 1024] array prepared before the launch: the bias with a unit axis in front, so its
    entry (·, c) is bias[c].
  An entry of a block sits in its array, on each axis, at block index × block extent + its own coordinate; the block
  indices are decided once over the 64 grid points.
-/
import proofs.«106319_j70007966925091_1_alg».proof.Proof.Gen.KernelIdeal.Value
import Idealize.ShloMosaic.Lib.StableHlo.Run
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The block indices at grid point `t`, axis by axis: the output and the encoder move with (t / 16, t % 16), the
    decoder with t / 16 alone, the weight and the bias stay at their one block. -/
theorem block_indices : ∀ t : Fin cfg0.N,
    win0_4.index t (0 : Fin 4) = t.val / 16 ∧ win0_4.index t (1 : Fin 4) = t.val % 16
    ∧ win0_4.index t (2 : Fin 4) = 0 ∧ win0_4.index t (3 : Fin 4) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The two arrays the program prepares before the launch -/

/-- The weight array the launch finds: W transposed, then sent to the narrower float format. -/
theorem weight_array (c : Dev nD) : (V m c main_v1 : S512x1024.Idx → Elt Ideal .bf16)
    = (truncf (F := Ideal) .bf16 (transpose S512x1024 [1, 0] (m ((c : Thread nD τ).loc main_arg2) : FVec Ideal S1024x512 .f32)
        transposes_S1024x512_S512x1024_1_0) bitsLt_bf16_f32 : FVec Ideal S512x1024 .bf16) := by
  dsimp only [V, hostOps0]
  after_results

/-- The bias array the launch finds: the bias laid out as one row. -/
theorem bias_array (c : Dev nD) : (V m c main_v2 : S1x1024.Idx → Elt Ideal .f32)
    = shapeCast S1x1024 (m ((c : Thread nD τ).loc main_arg3) : S1024.Idx → Elt Ideal .f32) shapeCasts_S1024_S1x1024 := by
  dsimp only [V, hostOps0]
  after_results
  rfl

/-- Its entry (k, c) is W[c, k]: on the extended reals the change of format is the identity. -/
theorem weight_array_at (c : Dev nD) (i : S512x1024.Idx) (k : Fin 512) (cc : Fin 1024) (h0 : (i 0).val = k.val) (h1 : (i 1).val = cc.val) :
    (V m c main_v1 : S512x1024.Idx → Elt Ideal .bf16) i
      = (m ((c : Thread nD τ).loc main_arg2) : S1024x512.Idx → Elt Ideal .f32) (ix2 cc k) := by
  have hi : i = ix2 k cc := funext fun a => Fin.ext (by match a with | ⟨0, _⟩ => exact h0 | ⟨1, _⟩ => exact h1)
  subst hi
  rw [weight_array, truncf_apply, transpose_ix2_apply]

/-- Its entry (·, c) is bias[c]. -/
theorem bias_array_at (c : Dev nD) (i : S1x1024.Idx) (cc : Fin 1024) (h1 : (i 1).val = cc.val) :
    (V m c main_v2 : S1x1024.Idx → Elt Ideal .f32) i = (m ((c : Thread nD τ).loc main_arg3) : S1024.Idx → Elt Ideal .f32) (ix1 cc) := by
  have hi : i = ix2 (0 : Fin 1) cc := funext fun a => Fin.ext (by
    match a with
    | ⟨0, _⟩ => have h : (i 0).val < 1 := (i 0).isLt; show (i 0).val = 0; omega
    | ⟨1, _⟩ => exact h1)
  subst hi
  rw [bias_array, shapeCast_a_1a_apply]

/-! ## The blocks at a grid point -/

/-- The encoder block at point `t`: frame `p` of the tile is frame 16·(t % 16) + p of batch entry t / 16. -/
theorem enc_block (c : Dev nD) (t : Fin cfg0.N) (u : Fin 1) (p : Fin 16) (k : Fin 512) (b : Fin 4) (mm : Fin 256)
    (hb : b.val = t.val / 16) (hm : mm.val = (t.val % 16) * 16 + p.val) :
    (iblk m c 0 t : Vec Ideal S1x16x512 .f32) (ix3 u p k)
      = (m ((c : Thread nD τ).loc main_arg0) : S4x256x512.Idx → Elt Ideal .f32) (ix3 b mm k) := by
  obtain ⟨-, -, -, -, e0, e1, e2, -⟩ := block_indices t
  have hu : u.val = 0 := by omega
  unfold iblk
  rw [View.read_apply]
  show V m c main_arg0 _ = _
  rw [V_main_arg0]
  refine congrArg _ (funext fun a => Fin.ext ?_)
  match a with
  | ⟨0, _⟩ => show win0_0.index t (0 : Fin 3) * 1 + 1 * u.val = b.val; rw [e0, hb, hu]; omega
  | ⟨1, _⟩ => show win0_0.index t (1 : Fin 3) * 16 + 1 * p.val = mm.val; rw [e1, hm]; omega
  | ⟨2, _⟩ => show win0_0.index t (2 : Fin 3) * 512 + 1 * k.val = k.val; rw [e2]; omega

/-- The decoder block at point `t`: all 128 frames of batch entry t / 16. -/
theorem dec_block (c : Dev nD) (t : Fin cfg0.N) (u : Fin 1) (q : Fin 128) (k : Fin 512) (b : Fin 4) (hb : b.val = t.val / 16) :
    (iblk m c 1 t : Vec Ideal S1x128x512 .f32) (ix3 u q k)
      = (m ((c : Thread nD τ).loc main_arg1) : S4x128x512.Idx → Elt Ideal .f32) (ix3 b q k) := by
  obtain ⟨-, -, -, -, -, -, -, e0, e1, e2, -⟩ := block_indices t
  have hu : u.val = 0 := by omega
  unfold iblk
  rw [View.read_apply]
  show V m c main_arg1 _ = _
  rw [V_main_arg1]
  refine congrArg _ (funext fun a => Fin.ext ?_)
  match a with
  | ⟨0, _⟩ => show win0_1.index t (0 : Fin 3) * 1 + 1 * u.val = b.val; rw [e0, hb, hu]; omega
  | ⟨1, _⟩ => show win0_1.index t (1 : Fin 3) * 128 + 1 * q.val = q.val; rw [e1]; omega
  | ⟨2, _⟩ => show win0_1.index t (2 : Fin 3) * 512 + 1 * k.val = k.val; rw [e2]; omega

/-- The weight block at every point: entry (k, c) is W[c, k]. -/
theorem weight_block (c : Dev nD) (t : Fin cfg0.N) (k : Fin 512) (cc : Fin 1024) :
    (iblk m c 2 t : Vec Ideal S512x1024 .bf16) (ix2 k cc)
      = (m ((c : Thread nD τ).loc main_arg2) : S1024x512.Idx → Elt Ideal .f32) (ix2 cc k) := by
  obtain ⟨-, -, -, -, -, -, -, -, -, -, e0, e1, -, -⟩ := block_indices t
  unfold iblk
  rw [View.read_apply]
  show V m c main_v1 _ = _
  exact weight_array_at m c _ k cc (by show win0_2.index t (0 : Fin 2) * 512 + 1 * k.val = k.val; rw [e0]; omega)
    (by show win0_2.index t (1 : Fin 2) * 1024 + 1 * cc.val = cc.val; rw [e1]; omega)

/-- The bias block at every point: entry (·, c) is bias[c]. -/
theorem bias_block (c : Dev nD) (t : Fin cfg0.N) (u : Fin 1) (cc : Fin 1024) :
    (iblk m c 3 t : Vec Ideal S1x1024 .f32) (ix2 u cc)
      = (m ((c : Thread nD τ).loc main_arg3) : S1024.Idx → Elt Ideal .f32) (ix1 cc) := by
  obtain ⟨-, -, -, -, -, -, -, -, -, -, -, -, e0, e1⟩ := block_indices t
  unfold iblk
  rw [View.read_apply]
  show V m c main_v2 _ = _
  exact bias_array_at m c _ cc (by show win0_3.index t (1 : Fin 2) * 1024 + 1 * cc.val = cc.val; rw [e1]; omega)

end Cert.KernelIdeal.Blocks

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.TileLogit.lean ====
/-
  What the kernel body computes for one grid point, read at one entry, on the extended reals.

  At a grid point the body holds a tile of 16 encoder frames `e` [1, 16, 512], the 128 decoder frames `d` [1, 128, 512] of
  the same batch entry, the whole transposed weight `w` [512, 1024] and the bias row `β` [1, 1024]. It adds every
  encoder frame to every decoder frame (two broadcasts and a sum, [16, 128, 512]), lays the 16·128 sums out as the rows
  of one [2048, 512] matrix (row p·128 + q is frame pair (p, q)), multiplies by `w` into a zero accumulator, adds the
  bias row to every row, and lays the [2048, 1024] product out again as [1, 16, 128, 1024]. On the extended reals the
  change of float format on the way into the matrix unit is the identity and the matrix product is the exact sum over
  the contracted axis, so the entry at (·, p, q, c) is

      (Σ_k (e[0, p, k] + d[0, q, k]) · w[k, c]) + β[0, c].
-/
import proofs.«106319_j70007966925091_1_alg».proof.Proof.Gen.KernelIdeal.Skeleton
import proofs.«106319_j70007966925091_1_alg».proof.Proof.LibFlattenBroadcast
import Idealize.ShloMosaic.PureOps.Ideal.Laws
import Idealize.ShloMosaic.Lib.ValueLayout

noncomputable section

namespace Cert.KernelIdeal.Tile

open Cert.KernelIdeal Cert.KernelIdeal.Gen Idealize.ShloMosaic Idealize.ShloMosaic.ValueIdx Cert.LibFlattenBroadcast

/-- The body's one matrix product: [2048, 512] times [512, 1024], contracting the 512 axis. -/
abbrev rowsTimesWeight := dot_S2048x512_S512x1024_S2048x1024_1_0_0_1_n_n

/-- The left operand's row coordinate is the output's row, whatever the contraction index. -/
theorem lhs_row (i : S2048x1024.Idx) (κ : rowsTimesWeight.contr.Idx) : (rowsTimesWeight.lhsIdx i κ 0).val = (i 0).val := by
  unfold DotDims.lhsIdx
  rw [dif_neg (show ¬(0 : Fin S2048x512.rank) ∈ rowsTimesWeight.lhsBatch by decide),
    dif_pos (show (0 : Fin S2048x512.rank) ∈ rowsTimesWeight.lhsNonContracting by decide)]
  rfl

/-- The right operand's column coordinate is the output's column, whatever the contraction index. -/
theorem rhs_col (i : S2048x1024.Idx) (κ : rowsTimesWeight.contr.Idx) : (rowsTimesWeight.rhsIdx i κ 1).val = (i 1).val := by
  unfold DotDims.rhsIdx
  rw [dif_neg (show ¬(1 : Fin S512x1024.rank) ∈ rowsTimesWeight.rhsBatch by decide),
    dif_pos (show (1 : Fin S512x1024.rank) ∈ rowsTimesWeight.rhsNonContracting by decide)]
  rfl

/-- The matrix product into the zero accumulator, at row `r` and column `c`: the sum over the 512 contracted
    coordinates of the row's entry times the column's. The product's own contraction index (an index of a rank-one
    shape) is exchanged for `k : Fin 512`. -/
theorem matmul_zero_at (lhs : FVec Ideal S2048x512 .bf16) (rhs : FVec Ideal S512x1024 .bf16) (r : Fin 2048) (c : Fin 1024) :
    matmul rowsTimesWeight none lhs rhs (constant (F := Ideal) S2048x1024 .f32 0x00000000#32) (ix2 r c)
      = ∑ k : Fin 512, lhs (ix2 r k) * rhs (ix2 k c) := by
  simp only [matmul]
  rw [Ideal.matmul_constant_zero_apply, ← Equiv.sum_comp (contrEquiv1 rowsTimesWeight 512 rfl rfl).symm]
  refine Finset.sum_congr rfl fun k _ => ?_
  have hk := contrEquiv1_symm_val rowsTimesWeight 512 rfl rfl k
  have el : rowsTimesWeight.lhsIdx (ix2 r c) ((contrEquiv1 rowsTimesWeight 512 rfl rfl).symm k) = ix2 r k :=
    funext fun a => Fin.ext (by
      match a with
      | ⟨0, _⟩ => exact lhs_row _ _
      | ⟨1, _⟩ => exact (rowsTimesWeight.lhsIdx_val_of_single rfl _ _).trans hk)
  have er : rowsTimesWeight.rhsIdx (ix2 r c) ((contrEquiv1 rowsTimesWeight 512 rfl rfl).symm k) = ix2 k c :=
    funext fun a => Fin.ext (by
      match a with
      | ⟨0, _⟩ => exact (rowsTimesWeight.rhsIdx_val_of_single rfl _ _).trans hk
      | ⟨1, _⟩ => exact rhs_col _ _)
  rw [el, er]

/-- The matrix product's left operand at row `r = p·128 + q`: encoder frame `p` of the tile plus decoder frame `q`.
    Outermost first: the merge of the two frame axes reads (p, q, ·); the change of float format is the identity; the
    sum is entrywise; each broadcast reads its operand's one entry on the unit axis; the casts that add or drop a unit
    axis keep the other coordinates. -/
theorem joined_at (e : Vec Ideal S1x16x512 .f32) (d : Vec Ideal S1x128x512 .f32) (p : Fin 16) (q : Fin 128) (k : Fin 512)
    (r : Fin 2048) (hr : r.val = p.val * 128 + q.val) :
    (shapeCast S2048x512
          (truncf FTy.bf16
            (addf
              (broadcastTo S16x128x512
                (shapeCast S16x1x512 (shapeCast S16x512 e shapeCasts_S1x16x512_S16x512) shapeCasts_S16x512_S16x1x512)
                broadcasts_S16x1x512_S16x128x512)
              (broadcastTo S16x128x512
                (shapeCast S1x128x512 (shapeCast S128x512 d shapeCasts_S1x128x512_S128x512)
                  shapeCasts_S128x512_S1x128x512)
                broadcasts_S1x128x512_S16x128x512))
            bitsLt_bf16_f32)
          shapeCasts_S16x128x512_S2048x512 : FVec Ideal S2048x512 .bf16) (ix2 r k)
      = e (ix3 (0 : Fin 1) p k) + d (ix3 (0 : Fin 1) q k) := by
  rw [shapeCast_abc_nc_apply _ _ p q k r hr, truncf_apply, addf_apply, broadcastTo_a1c_abc_apply, broadcastTo_1bc_abc_apply,
    shapeCast_ac_a1c_apply, shapeCast_1ab_ab_apply, shapeCast_ab_1ab_apply, shapeCast_1ab_ab_apply]

/-- THE TILE'S ENTRY: what the body stores at (u, p, q, c), as a function of the four blocks it loaded. -/
theorem tile_logit (e : Vec Ideal S1x16x512 .f32) (d : Vec Ideal S1x128x512 .f32) (w : Vec Ideal S512x1024 .bf16)
    (β : Vec Ideal S1x1024 .f32) (u : Fin 1) (p : Fin 16) (q : Fin 128) (c : Fin 1024) :
    k0_pay1 e d w β (ix4 u p q c)
      = (∑ k : Fin 512, (e (ix3 (0 : Fin 1) p k) + d (ix3 (0 : Fin 1) q k)) * w (ix2 k c)) + β (ix2 (0 : Fin 1) c) := by
  unfold k0_pay1
  rw [shapeCast_abc_1abc_apply, shapeCast_nc_abc_apply _ _ p q c ⟨p.val * 128 + q.val, by omega⟩ rfl,
    addf_apply, broadcastTo_1b_ab_apply, matmul_zero_at]
  simp only [shapeCast_self]
  refine congrArg (· + β (ix2 (0 : Fin 1) c)) (Finset.sum_congr rfl fun k _ => ?_)
  rw [joined_at e d p q k _ rfl]

end Cert.KernelIdeal.Tile

end
-- ==== Proof.JoinerSpec.lean ====
/-
  The function both programs compute, on the extended reals.

  For an encoder sequence `enc` [4, 256, 512], a decoder sequence `dec` [4, 128, 512], a weight matrix `W` [1024, 512]
  and a bias `bias` [1024], the joint network's logits are

      logits[b, m, n, c] = (Σ_d (enc[b, m, d] + dec[b, n, d]) · W[c, d]) + bias[c].

  Every encoder frame m is added to every decoder frame n, and the sum is sent through one linear layer. Nothing here
  is rounded: the sum over d is the exact sum of 512 extended reals, in which order does not matter (addition of
  extended reals is commutative and associative).
-/
import Idealize.ShloMosaic.PureOps.Ideal
import Idealize.ShloMosaic.Lib.ValueIdx

noncomputable section

namespace Cert.Joiner

open Idealize.ShloMosaic Idealize.ShloMosaic.ValueIdx

/-- One logit, from the coordinates of its index. -/
def logitAt (enc : (⟨3, ![4, 256, 512]⟩ : Shape).Idx → EReal) (dec : (⟨3, ![4, 128, 512]⟩ : Shape).Idx → EReal)
    (W : (⟨2, ![1024, 512]⟩ : Shape).Idx → EReal) (bias : (⟨1, ![1024]⟩ : Shape).Idx → EReal)
    (b : Fin 4) (m : Fin 256) (n : Fin 128) (c : Fin 1024) : EReal :=
  (∑ d : Fin 512, (enc (ix3 b m d) + dec (ix3 b n d)) * W (ix2 c d)) + bias (ix1 c)

/-- The whole [4, 256, 128, 1024] array of logits. -/
def logits (enc : (⟨3, ![4, 256, 512]⟩ : Shape).Idx → EReal) (dec : (⟨3, ![4, 128, 512]⟩ : Shape).Idx → EReal)
    (W : (⟨2, ![1024, 512]⟩ : Shape).Idx → EReal) (bias : (⟨1, ![1024]⟩ : Shape).Idx → EReal) :
    (⟨4, ![4, 256, 128, 1024]⟩ : Shape).Idx → EReal :=
  fun i => logitAt enc dec W bias (i 0) (i 1) (i 2) (i 3)

/-- At an index written by its coordinates. -/
theorem logits_ix4 (enc : (⟨3, ![4, 256, 512]⟩ : Shape).Idx → EReal) (dec : (⟨3, ![4, 128, 512]⟩ : Shape).Idx → EReal)
    (W : (⟨2, ![1024, 512]⟩ : Shape).Idx → EReal) (bias : (⟨1, ![1024]⟩ : Shape).Idx → EReal)
    (b : Fin 4) (m : Fin 256) (n : Fin 128) (c : Fin 1024) :
    logits enc dec W bias (ix4 b m n c) = logitAt enc dec W bias b m n c := rfl

end Cert.Joiner

end
-- ==== Proof.LogitsArray.lean ====
/-
  The kernel's result array is `logits` of the four arguments.

  Grid point t writes back one block of the [4, 256, 128, 1024] result: batch entry t / 16, encoder frames
  16·(t % 16) … 16·(t % 16) + 15, every decoder frame, every output feature. Its entry (·, p, q, c) is the tile's
  entry (Σ_k (e[0, p, k] + d[0, q, k]) · w[k, c]) + β[0, c] of the point's four input blocks; with each block read as
  entries of the argument arrays this is logits[t / 16, 16·(t % 16) + p, q, c]: the block is the block of `logits`.
  The 64 blocks tile the array — entry (b, m, n, c) lies in the block of point 16·b + m / 16 — so after the run the whole
  array is `logits`.
-/
import proofs.«106319_j70007966925091_1_alg».proof.Proof.Gen.KernelIdeal.Value
import proofs.«106319_j70007966925091_1_alg».proof.Proof.WindowBlocks
import proofs.«106319_j70007966925091_1_alg».proof.Proof.TileLogit
import proofs.«106319_j70007966925091_1_alg».proof.Proof.JoinerSpec
import Idealize.ShloMosaic.Lib.Pipeline.Value

noncomputable section

namespace Cert.KernelIdeal.Logits

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- What the result array holds after the run: `logits` of the four argument arrays as launched. -/
abbrev result (c : Dev nD) : Buf (Elt Ideal) ((c : Thread nD τ).loc main_v3) :=
  Cert.Joiner.logits (m ((c : Thread nD τ).loc main_arg0)) (m ((c : Thread nD τ).loc main_arg1))
    (m ((c : Thread nD τ).loc main_arg2)) (m ((c : Thread nD τ).loc main_arg3))

/-- WHAT POINT `t` WRITES BACK is block `t` of `logits`. The body loads its four staging buffers whole and stores the
    tile whole; the tile's entry (u, p, q, c) sits in the result at (t / 16, 16·(t % 16) + p, q, c), and there `logits` is
    the same sum over k of the same products, plus the same bias entry. -/
theorem written_back (c : Dev nD) (t : Fin cfg0.N) :
    (dats m 0 c).flushed 4 t = ((cfg0.win 4).blk t).view.read (Elt Ideal) (result m c) := by
  rw [Value.flushed4]
  unfold out0_4
  rw [View.canon_unit_zero zeros4]
  simp only [View.ld_unit_zero (S := S1x16x512) zeros3, View.ld_unit_zero (S := S1x128x512) zeros3,
    View.ld_unit_zero (S := S512x1024) zeros2, View.ld_unit_zero (S := S1x1024) zeros2]
  funext y
  obtain ⟨u, p, q, cc, rfl⟩ : ∃ (u : Fin 1) (p : Fin 16) (q : Fin 128) (cc : Fin 1024), y = ix4 u p q cc :=
    ⟨y 0, y 1, y 2, y 3, eq_ix4 y⟩
  show k0_pay1 (iblk m c 0 t) (iblk m c 1 t) (iblk m c 2 t) (iblk m c 3 t) (ix4 u p q cc)
    = result m c (((cfg0.win 4).blk t).view.emb (ix4 u p q cc))
  obtain ⟨f0, f1, f2, f3, -⟩ := block_indices t
  have ht : t.val < 64 := Nat.lt_of_lt_of_eq t.isLt N_0
  have hu : u.val = 0 := by omega
  have hp : p.val < 16 := p.isLt
  let b : Fin 4 := ⟨t.val / 16, by omega⟩
  let mm : Fin 256 := ⟨(t.val % 16) * 16 + p.val, by omega⟩
  have hemb : ((cfg0.win 4).blk t).view.emb (ix4 u p q cc) = ix4 b mm q cc := funext fun a => Fin.ext (by
    match a with
    | ⟨0, _⟩ => show win0_4.index t (0 : Fin 4) * 1 + 1 * u.val = t.val / 16; rw [f0, hu]; omega
    | ⟨1, _⟩ => show win0_4.index t (1 : Fin 4) * 16 + 1 * p.val = (t.val % 16) * 16 + p.val; rw [f1]; omega
    | ⟨2, _⟩ => show win0_4.index t (2 : Fin 4) * 128 + 1 * q.val = q.val; rw [f2]; omega
    | ⟨3, _⟩ => show win0_4.index t (3 : Fin 4) * 1024 + 1 * cc.val = cc.val; rw [f3]; omega)
  refine Eq.trans ?_ (congrArg (result m c) hemb).symm
  show _ = Cert.Joiner.logits _ _ _ _ (ix4 b mm q cc)
  rw [Cert.Joiner.logits_ix4, Cert.KernelIdeal.Tile.tile_logit]
  unfold Cert.Joiner.logitAt
  refine congrArg₂ (· + ·) (Finset.sum_congr rfl fun k _ => ?_) (bias_block m c t 0 cc)
  rw [enc_block m c t 0 p k b mm rfl rfl, dec_block m c t 0 q k b rfl, weight_block m c t k cc]

/-- An index of the result is in point `t`'s block iff each coordinate is in the block's range on its axis. -/
theorem mem_block (t : Fin cfg0.N) (i : S4x256x128x1024.Idx) :
    i ∈ ((cfg0.win 4).blk t).view.set ↔ ∀ a : Fin 4, win0_4.index t a * S1x16x128x1024.size a ≤ (i a).val
      ∧ (i a).val < win0_4.index t a * S1x16x128x1024.size a + S1x16x128x1024.size a := by
  show i ∈ ((View.whole main_v3).slice (win0_4.rect t)).set ↔ _
  rw [View.set_slice_whole, Rect.mem_set_unit]
  exact Iff.rfl

/-- THE BLOCKS TILE THE ARRAY: entry (b, m, n, c) is in the block of point 16·b + m / 16, which writes back. -/
theorem covered (i : S4x256x128x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 128 := (i 2).isLt
  have hi3 : (i 3).val < 1024 := (i 3).isLt
  have hN : cfg0.N = 64 := N_0
  have htlt : (i 0).val * 16 + (i 1).val / 16 < cfg0.N := by rw [hN]; omega
  obtain ⟨f0, f1, f2, f3, -⟩ := block_indices ⟨(i 0).val * 16 + (i 1).val / 16, htlt⟩
  refine ⟨⟨(i 0).val * 16 + (i 1).val / 16, htlt⟩, flush0_4 _, ?_⟩
  rw [mem_block]
  intro a
  match a with
  | ⟨0, _⟩ =>
    show win0_4.index ⟨(i 0).val * 16 + (i 1).val / 16, htlt⟩ (0 : Fin 4) * 1 ≤ (i 0).val
      ∧ (i 0).val < win0_4.index ⟨(i 0).val * 16 + (i 1).val / 16, htlt⟩ (0 : Fin 4) * 1 + 1
    rw [f0]
    show ((i 0).val * 16 + (i 1).val / 16) / 16 * 1 ≤ (i 0).val
      ∧ (i 0).val < ((i 0).val * 16 + (i 1).val / 16) / 16 * 1 + 1
    omega
  | ⟨1, _⟩ =>
    show win0_4.index ⟨(i 0).val * 16 + (i 1).val / 16, htlt⟩ (1 : Fin 4) * 16 ≤ (i 1).val
      ∧ (i 1).val < win0_4.index ⟨(i 0).val * 16 + (i 1).val / 16, htlt⟩ (1 : Fin 4) * 16 + 16
    rw [f1]
    show ((i 0).val * 16 + (i 1).val / 16) % 16 * 16 ≤ (i 1).val
      ∧ (i 1).val < ((i 0).val * 16 + (i 1).val / 16) % 16 * 16 + 16
    omega
  | ⟨2, _⟩ =>
    show win0_4.index ⟨(i 0).val * 16 + (i 1).val / 16, htlt⟩ (2 : Fin 4) * 128 ≤ (i 2).val
      ∧ (i 2).val < win0_4.index ⟨(i 0).val * 16 + (i 1).val / 16, htlt⟩ (2 : Fin 4) * 128 + 128
    rw [f2]; omega
  | ⟨3, _⟩ =>
    show win0_4.index ⟨(i 0).val * 16 + (i 1).val / 16, htlt⟩ (3 : Fin 4) * 1024 ≤ (i 3).val
      ∧ (i 3).val < win0_4.index ⟨(i 0).val * 16 + (i 1).val / 16, htlt⟩ (3 : Fin 4) * 1024 + 1024
    rw [f3]; omega

/-- THE ARRAY after the run is `logits` of the arguments. -/
theorem final_array (c : Dev nD) : (dats m 0 c).arrAt 4 cfg0.N = result m c :=
  (dats m 0 c).arrAt_eq_of_cover 4 (result m c) (fun t _ => written_back m c t) covered

/-- The run: every weakly fair execution terminates with the result array at `logits` of the arguments and the
    arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_array m c), (h c).2⟩) (Value.run_blocks m ρ)

end Cert.KernelIdeal.Logits

end
-- ==== Proof.ReferenceLogits.lean ====
/-
  The reference computes `logits`.

  The reference program broadcasts the encoder sequence along a new decoder axis and the decoder sequence along a new
  encoder axis, adds the two [4, 256, 128, 512] arrays, contracts the last axis with the weight matrix's second axis
  (one `dot_general`), and adds the bias broadcast along the three leading axes. Read at the index (b, m, n, c), on the
  extended reals, the `dot_general` is the exact sum over d of joined[b, m, n, d] · W[c, d]; each broadcast reads its
  operand at the coordinates it keeps. What is left are three equations between composed index maps and the
  coordinates they denote.
-/
import proofs.«106319_j70007966925091_1_alg».proof.Proof.Gen.ReferenceIdeal.Read
import proofs.«106319_j70007966925091_1_alg».proof.Proof.JoinerSpec

noncomputable section

namespace Cert.ReferenceIdeal.Logits

open Cert.ReferenceIdeal Cert.ReferenceIdeal.Gen Cert.ReferenceIdeal.Read Idealize.ShloMosaic Idealize.ShloMosaic.ValueIdx

/-- The reference's last stage, as a function of the four arguments, is `logits`. -/
theorem stage_eq_logits (x0 : (⟨S4x256x512, .f32⟩ : BufTy).Contents (Elt Ideal)) (x1 : (⟨S4x128x512, .f32⟩ : BufTy).Contents (Elt Ideal))
    (x2 : (⟨S1024x512, .f32⟩ : BufTy).Contents (Elt Ideal)) (x3 : (⟨S1024, .f32⟩ : BufTy).Contents (Elt Ideal)) :
    val_main_v8 (F := Ideal) x0 x1 x2 x3 = Cert.Joiner.logits x0 x1 x2 x3 := by
  funext i
  obtain ⟨b, mm, n, c, rfl⟩ : ∃ (b : Fin 4) (mm : Fin 256) (n : Fin 128) (c : Fin 1024), i = ix4 b mm n c :=
    ⟨i 0, i 1, i 2, i 3, eq_ix4 i⟩
  rw [Cert.Joiner.logits_ix4]
  unfold Cert.Joiner.logitAt
  rw [val_main_v8_apply, val_main_v5_apply, val_main_v7_apply, val_main_v6_apply]
  -- the bias is read at its one coordinate c
  have ebias : idx_main_v6 (idx_main_v7 (ix4 b mm n c)) = ix1 c :=
    funext fun a => Fin.ext (by match a with | ⟨0, _⟩ => rfl)
  rw [ebias]
  refine congrArg (· + x3 (ix1 c)) (Finset.sum_congr rfl fun k _ => ?_)
  rw [val_main_v4_apply, val_main_v2_apply, val_main_v3_apply, val_main_v0_apply, val_main_v1_apply]
  -- the encoder is read at (b, m, k), the decoder at (b, n, k), the weight at (c, k)
  have eenc : idx_main_v0 (idx_main_v2 (lidx_main_v5 (ix4 b mm n c) k)) = ix3 b mm k :=
    funext fun a => Fin.ext (by match a with | ⟨0, _⟩ => rfl | ⟨1, _⟩ => rfl | ⟨2, _⟩ => rfl)
  have edec : idx_main_v1 (idx_main_v3 (lidx_main_v5 (ix4 b mm n c) k)) = ix3 b n k :=
    funext fun a => Fin.ext (by match a with | ⟨0, _⟩ => rfl | ⟨1, _⟩ => rfl | ⟨2, _⟩ => rfl)
  have ew : ridx_main_v5 (ix4 b mm n c) k = ix2 c k :=
    funext fun a => Fin.ext (by match a with | ⟨0, _⟩ => rfl | ⟨1, _⟩ => rfl)
  rw [eenc, edec, ew]
  rfl

end Cert.ReferenceIdeal.Logits

end
-- ==== Proof.lean ====
/-
  The joint network of a transducer: a tiled kernel against its reference, on the extended reals.

  Both programs take an encoder sequence enc [4, 256, 512], a decoder sequence dec [4, 128, 512], a weight matrix
  W [1024, 512] and a bias [1024], and return the [4, 256, 128, 1024] array

      logits[b, m, n, c] = (Σ_d (enc[b, m, d] + dec[b, n, d]) · W[c, d]) + bias[c].

  The reference broadcasts both sequences to [4, 256, 128, 512], adds them, contracts d against W in one
  `dot_general` and adds the bias. The kernel transposes W once before the launch and then, for each of 4 × 16 grid
  points, adds a tile of sixteen encoder frames to the 128 decoder frames of the same batch entry, lays the 2048
  sums out as the rows of one matrix, multiplies it by the transposed weight into a zero accumulator and adds the bias
  row. On the extended reals a change of float format is the identity and both matrix products are the exact sum over
  d, so the two results agree entry by entry: the same 512 products are summed on both sides and no law beyond
  re-indexing that sum is used. In particular nothing here needs the inputs to be finite.

  The two kernel frames are the generated class-A frame certificates; the reference's frame is its run with the result
  dropped; the idealization rewrote nothing, so `preserves` is `True`.
-/
import proofs.«106319_j70007966925091_1_alg».proof.Defs
import proofs.«106319_j70007966925091_1_alg».proof.Proof.Gen.Kernel
import proofs.«106319_j70007966925091_1_alg».proof.Proof.Gen.Kernel.Frame
import proofs.«106319_j70007966925091_1_alg».proof.Proof.Gen.KernelIdeal
import proofs.«106319_j70007966925091_1_alg».proof.Proof.Gen.KernelIdeal.Frame
import proofs.«106319_j70007966925091_1_alg».proof.Proof.Gen.KernelIdeal.Value
import proofs.«106319_j70007966925091_1_alg».proof.Proof.Gen.ReferenceIdeal
import proofs.«106319_j70007966925091_1_alg».proof.Proof.Gen.ReferenceIdeal.Run
import proofs.«106319_j70007966925091_1_alg».proof.Proof.Gen.ReferenceIdeal.Read
import proofs.«106319_j70007966925091_1_alg».proof.Proof.Gen.Pre_finite_inputs
import proofs.«106319_j70007966925091_1_alg».proof.Proof.LogitsArray
import proofs.«106319_j70007966925091_1_alg».proof.Proof.ReferenceLogits

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is nine array operations in a row: it runs, and none of them writes an argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on the four arguments, the idealized kernel ends with its result array at `logits` of its
    arguments, and the idealized reference with its result at its last stage, which is `logits` of its own arguments:
    the same array. -/
theorem algebraic : Cert.algebraic_KernelIdeal_ReferenceIdeal := by
  intro m ρ m' ρ' _ hagree
  refine ⟨fun c => Cert.KernelIdeal.Logits.result m c, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Logits.stage_eq_logits,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
